-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 108
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x64, .f32⟩
  | .hbm, ⟨99, _⟩ => ⟨S1700000x1, .f32⟩
  | .hbm, ⟨100, _⟩ => ⟨S1700000x64, .f32⟩
  | .hbm, ⟨101, _⟩ => ⟨S1700000x64, .f32⟩
  | .hbm, ⟨102, _⟩ => ⟨S_, .f32⟩
  | .hbm, ⟨103, _⟩ => ⟨S100000x64, .f32⟩
  | .hbm, ⟨104, _⟩ => ⟨S1700000x1, .i32⟩
  | .hbm, ⟨105, _⟩ => ⟨S100000x64, .f32⟩
  | .hbm, ⟨106, _⟩ => ⟨S1x64, .f32⟩
  | .hbm, ⟨107, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v47) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x64, .f32⟩
  | .hbm, ⟨104, _⟩ => ⟨S1700000x1, .f32⟩
  | .hbm, ⟨105, _⟩ => ⟨S1700000x64, .f32⟩
  | .hbm, ⟨106, _⟩ => ⟨S1700000x64, .f32⟩
  | .hbm, ⟨107, _⟩ => ⟨S_, .f32⟩
  | .hbm, ⟨108, _⟩ => ⟨S100000x64, .f32⟩
  | .hbm, ⟨109, _⟩ => ⟨S1700000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Encoder.lean ====
import proofs.«142807_j22084721836480_1_alg».proof.Proof.Gen.ReferenceIdeal

/-!
# The encoder as one function of its arguments

Both programs compute a two-layer graph convolution over a graph given as a list of directed edges `e` (a row of sources
and a row of targets), every node also joined to itself. With `src` and `dst` the two rows with the self-loops appended,
the degree of a node is the number of entries of `dst` naming it, `dis` is the reciprocal square root of the degree
(zero at degree zero), and an edge's weight `nrm` is `dis` at its source times `dis` at its target. One aggregation
takes an array `hw` of node rows, gathers the row of each edge's source, scales it by the edge's weight and adds it into
the row of the edge's target. A layer is a matrix product, an aggregation and a bias row added to every node; the
hidden layer is followed by a maximum with zero, and the two outputs are two such layers over the same hidden array.
The definitions below spell these steps with the host operations, in the order and with the index conventions (a
negative index counted from the end) that the reference program uses.
-/

noncomputable section

namespace Cert.Encoder

open Cert.ReferenceIdeal Cert.ReferenceIdeal.Gen Idealize.ShloMosaic

variable {F : FTy → Type} [FloatOps F]

/-- The sources of the edges, the self-loops appended. -/
def src (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets of the edges, the self-loops appended. -/
def dst (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node index as the gather reads it: a negative one is counted from the end. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- The number of edges arriving at each node. -/
def deg (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (dst e)) (broadcastInDim S1700000 ![] bcast_S_S1700000 (constant S_ .f32 0x3F800000#32))

/-- The reciprocal square root of the degree, zero where the degree is zero. -/
def dis (e : (⟨S2x1600000, .i32⟩ : BufTy).Contents (Elt F)) : (⟨S100000, .f32⟩ : BufTy).Contents (Elt F) :=
  select (cmpf (F := F) .ogt (deg e) (broadcastInDim S100000 ![] bcast_S_S100000 (constant S_ .f32 0x00000000#32))) (Host.rsqrt (maximumf (deg e) (broadcastInDim S100000 ![] bcast_S_S100000 (constant S_ .f32 0x3F800000#32)))) (broadcastInDim S100000 ![] bcast_S_S100000 (id (constant S_ .f32 0x00000000#32)))

/-- The weight of each edge: `dis` at its source times `dis` at its target. -/
def nrm (e : (⟨S2x1600000, .i32⟩ : BufTy).Contents (Elt F)) : (⟨S1700000, .f32⟩ : BufTy).Contents (Elt F) :=
  mulf (Host.gather gather_S100000_S1700000x1_S1700000_n_0_n_n_0_1_1 (dis e) (broadcastInDim S1700000x1 ![0] bcast_S1700000_S1700000x1_0 (select (cmpi .slt (src e) (broadcastInDim S1700000 ![] bcast_S_S1700000 (constantI S_ 32 0#32))) (addi (src e) (broadcastInDim S1700000 ![] bcast_S_S1700000 (constantI S_ 32 100000#32))) (src e)))) (Host.gather gather_S100000_S1700000x1_S1700000_n_0_n_n_0_1_1 (dis e) (broadcastInDim S1700000x1 ![0] bcast_S1700000_S1700000x1_0 (select (cmpi .slt (dst e) (broadcastInDim S1700000 ![] bcast_S_S1700000 (constantI S_ 32 0#32))) (addi (dst e) (broadcastInDim S1700000 ![] bcast_S_S1700000 (constantI S_ 32 100000#32))) (dst e))))

/-- One aggregation of 128-wide node rows: each edge adds its source's row, scaled by its weight, into its target's row. -/
def agg128 (e : (⟨S2x1600000, .i32⟩ : BufTy).Contents (Elt F)) (hw : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dst e)) (mulf (Host.gather gather_S100000x128_S1700000x1_S1700000x128_1_0_n_n_0_1_1128 hw (broadcastInDim S1700000x1 ![0] bcast_S1700000_S1700000x1_0 (select (cmpi .slt (src e) (broadcastInDim S1700000 ![] bcast_S_S1700000 (constantI S_ 32 0#32))) (addi (src e) (broadcastInDim S1700000 ![] bcast_S_S1700000 (constantI S_ 32 100000#32))) (src e)))) (broadcastInDim S1700000x128 ![0, 1] bcast_S1700000x1_S1700000x128_0_1 (broadcastInDim S1700000x1 ![0] bcast_S1700000_S1700000x1_0 (nrm e))))

/-- The same aggregation of 64-wide node rows. -/
def agg64 (e : (⟨S2x1600000, .i32⟩ : BufTy).Contents (Elt F)) (hw : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (dst e)) (mulf (Host.gather gather_S100000x64_S1700000x1_S1700000x64_1_0_n_n_0_1_164 hw (broadcastInDim S1700000x1 ![0] bcast_S1700000_S1700000x1_0 (select (cmpi .slt (src e) (broadcastInDim S1700000 ![] bcast_S_S1700000 (constantI S_ 32 0#32))) (addi (src e) (broadcastInDim S1700000 ![] bcast_S_S1700000 (constantI S_ 32 100000#32))) (src e)))) (broadcastInDim S1700000x64 ![0, 1] bcast_S1700000x1_S1700000x64_0_1 (broadcastInDim S1700000x1 ![0] bcast_S1700000_S1700000x1_0 (nrm e))))

/-- A 128-entry bias laid along every node's row. -/
def row128 (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- A 64-entry bias laid along every node's row. -/
def row64 (b : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 b)

/-- The hidden layer: product with `w`, aggregation, bias, maximum with zero. -/
def hid (e : (⟨S2x1600000, .i32⟩ : BufTy).Contents (Elt F)) (x : (⟨S100000x128, .f32⟩ : BufTy).Contents (Elt F)) (w : (⟨S128x128, .f32⟩ : BufTy).Contents (Elt F)) (b : (⟨S128, .f32⟩ : BufTy).Contents (Elt F)) :
    (⟨S100000x128, .f32⟩ : BufTy).Contents (Elt F) :=
  maximumf (addf (agg128 e (Host.dotGeneral dot_S100000x128_S128x128_S100000x128_1_0_0_1_n_n none x w)) (row128 b)) (broadcastInDim S100000x128 ![] bcast_S_S100000x128 (constant S_ .f32 0x00000000#32))

/-- An output layer over the hidden array `h`: product with `w`, aggregation, bias. -/
def out64 (e : (⟨S2x1600000, .i32⟩ : BufTy).Contents (Elt F)) (h : (⟨S100000x128, .f32⟩ : BufTy).Contents (Elt F)) (w : (⟨S128x64, .f32⟩ : BufTy).Contents (Elt F)) (b : (⟨S64, .f32⟩ : BufTy).Contents (Elt F)) :
    (⟨S100000x64, .f32⟩ : BufTy).Contents (Elt F) :=
  addf (agg64 e (Host.dotGeneral dot_S100000x128_S128x64_S100000x64_1_0_0_1_n_n none h w)) (row64 b)

end Cert.Encoder

end
-- ==== Proof.ReferenceValue.lean ====
import proofs.«142807_j22084721836480_1_alg».proof.Proof.ReferenceRun
import proofs.«142807_j22084721836480_1_alg».proof.Proof.Encoder

/-!
# The reference computes the encoder

The reference program is host operations only, and the composed term of its run is, subterm for subterm, the encoder's
definition applied to the argument arrays: both results are an output layer over the one hidden array.
-/

noncomputable section

namespace Cert.ReferenceIdeal.Enc

open Cert.ReferenceIdeal Cert.ReferenceIdeal.ValueP Cert.Encoder Idealize.ShloMosaic Idealize.ShloMosaic.TcCoe Idealize.SL.Sem

variable {F : FTy → Type} [FloatOps F]
variable (m : (ℓ : Loc nD τ sig) → Buf (Elt F) ℓ)

/-- The first result is the output layer with the fifth and sixth arguments over the hidden array. -/
theorem out0_eq (c : Dev nD) :
    res_main_v66 m c = out64 (m ((c.tc : Thread nD τ).loc main_arg1))
      (hid (m ((c.tc : Thread nD τ).loc main_arg1)) (m ((c.tc : Thread nD τ).loc main_arg0)) (m ((c.tc : Thread nD τ).loc main_arg2)) (m ((c.tc : Thread nD τ).loc main_arg3)))
      (m ((c.tc : Thread nD τ).loc main_arg4)) (m ((c.tc : Thread nD τ).loc main_arg5)) := by
  unfold res_main_v66
  rfl

/-- The second result is the output layer with the seventh and eighth arguments over the same hidden array. -/
theorem out1_eq (c : Dev nD) :
    res_main_v83 m c = out64 (m ((c.tc : Thread nD τ).loc main_arg1))
      (hid (m ((c.tc : Thread nD τ).loc main_arg1)) (m ((c.tc : Thread nD τ).loc main_arg0)) (m ((c.tc : Thread nD τ).loc main_arg2)) (m ((c.tc : Thread nD τ).loc main_arg3)))
      (m ((c.tc : Thread nD τ).loc main_arg6)) (m ((c.tc : Thread nD τ).loc main_arg7)) := by
  unfold res_main_v83
  rfl

end Cert.ReferenceIdeal.Enc

end
-- ==== Proof.KernelRun.lean ====
import proofs.«142807_j22084721836480_1_alg».proof.Proof.Gen.KernelIdeal.Frame

/-!
# The kernel's run with its buffers named

The program is twelve segments: stretches of host operations and six tiled regions. Each segment takes the contents of
every buffer that outlives a region from one valuation to the next; the last valuation, `W12`, is the composition of
all twelve. Every weakly fair execution terminates, nothing faulting, and in the final state each such buffer holds
what `W12` says: the two result buffers in particular, and the argument buffers, which `W12` leaves as launched.
-/

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the regions ends at the last valuation of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The two result buffers at the last valuation, the eight argument buffers as launched. -/
theorem run_named : θ_run defs (onTc (τ := τ) (main (F := F))) ⟨m, fun _ => 0, ρ⟩ (fun r => ∀ c : Dev nD,
      r.2.mem ((c.tc : Thread nD τ).loc main_v63) = W12 m ρ c (Proc.devRef .tc main_v63)
      ∧ r.2.mem ((c.tc : Thread nD τ).loc main_v79) = W12 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
      ⟨h c _ (mem_uc main_v63 (by decide)),
       h c _ (mem_uc main_v79 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)
    (run_all m ρ)

end Cert.KernelIdeal.Named

end
-- ==== Proof.KernelCarried.lean ====
import proofs.«142807_j22084721836480_1_alg».proof.Proof.Gen.KernelIdeal.Frame
import proofs.«142807_j22084721836480_1_alg».proof.Proof.Encoder

/-!
# What the kernel program carries from segment to segment

The kernel program prepares the graph once, before its first tiled region: the edge sources and targets with the
self-loops appended and the edge weights. No later segment writes those three buffers, nor an argument buffer, so at
every later segment boundary they still hold the encoder's `src`, `dst` and `nrm` of the edge list and the arguments as
launched. A region leaves every buffer that is not one of its three arrays as it found it; a stretch of host operations
leaves every buffer it does not write. The hidden array, written by the second region, is likewise carried to the fifth
region's entry, and the first result, written by the fourth region, to the end.
-/

set_option maxRecDepth 16384

noncomputable section

namespace Cert.KernelIdeal.Carried

open Cert.KernelIdeal Cert.KernelIdeal.Gen
open Idealize.ShloMosaic Idealize.ShloMosaic.TcCoe Idealize.ShloMosaic.Tactic Idealize.ShloMosaic.StableHlo
open Idealize.SL.Sem

variable {F : FTy → Type} [FloatOps F]
variable (m : (ℓ : Loc nD τ sig) → Buf (Elt F) ℓ) (ρ : Dev nD → PrngReg)

/-! ## At the first region's entry (after the graph preparation) -/

theorem src3 (c : Dev nD) : W3 m ρ c (Proc.devRef .tc main_v3) = Cert.Encoder.src (m ((c : Thread nD τ).loc main_arg1)) := by
  show StableHlo.after hostOps0_2 (StableHlo.after hostOps0_1 (StableHlo.after hostOps0 (W0 m ρ c))) (Proc.devRef .tc main_v3) = _
  after_results_simp <;> rfl
theorem dst3 (c : Dev nD) : W3 m ρ c (Proc.devRef .tc main_v6) = Cert.Encoder.dst (m ((c : Thread nD τ).loc main_arg1)) := by
  show StableHlo.after hostOps0_2 (StableHlo.after hostOps0_1 (StableHlo.after hostOps0 (W0 m ρ c))) (Proc.devRef .tc main_v6) = _
  after_results_simp <;> rfl
theorem nrm3 (c : Dev nD) : W3 m ρ c (Proc.devRef .tc main_v31) = Cert.Encoder.nrm (m ((c : Thread nD τ).loc main_arg1)) := by
  show StableHlo.after hostOps0_2 (StableHlo.after hostOps0_1 (StableHlo.after hostOps0 (W0 m ρ c))) (Proc.devRef .tc main_v31) = _
  after_results_simp <;> rfl
theorem a03 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem a23 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem a33 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem a43 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem a53 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem a63 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem a73 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

/-! ## After the first product -/

theorem src4 (c : Dev nD) : W4 m ρ c (Proc.devRef .tc main_v3) = Cert.Encoder.src (m ((c : Thread nD τ).loc main_arg1)) :=
  (W4_of_ne m ρ c main_v3 (by decide)).trans (src3 m ρ c)
theorem dst4 (c : Dev nD) : W4 m ρ c (Proc.devRef .tc main_v6) = Cert.Encoder.dst (m ((c : Thread nD τ).loc main_arg1)) :=
  (W4_of_ne m ρ c main_v6 (by decide)).trans (dst3 m ρ c)
theorem nrm4 (c : Dev nD) : W4 m ρ c (Proc.devRef .tc main_v31) = Cert.Encoder.nrm (m ((c : Thread nD τ).loc main_arg1)) :=
  (W4_of_ne m ρ c main_v31 (by decide)).trans (nrm3 m ρ c)
theorem a34 (c : Dev nD) : W4 m ρ c (Proc.devRef .tc main_arg3) = m ((c : Thread nD τ).loc main_arg3) :=
  (W4_of_ne m ρ c main_arg3 (by decide)).trans (a33 m ρ c)
theorem a44 (c : Dev nD) : W4 m ρ c (Proc.devRef .tc main_arg4) = m ((c : Thread nD τ).loc main_arg4) :=
  (W4_of_ne m ρ c main_arg4 (by decide)).trans (a43 m ρ c)
theorem a54 (c : Dev nD) : W4 m ρ c (Proc.devRef .tc main_arg5) = m ((c : Thread nD τ).loc main_arg5) :=
  (W4_of_ne m ρ c main_arg5 (by decide)).trans (a53 m ρ c)
theorem a64 (c : Dev nD) : W4 m ρ c (Proc.devRef .tc main_arg6) = m ((c : Thread nD τ).loc main_arg6) :=
  (W4_of_ne m ρ c main_arg6 (by decide)).trans (a63 m ρ c)
theorem a74 (c : Dev nD) : W4 m ρ c (Proc.devRef .tc main_arg7) = m ((c : Thread nD τ).loc main_arg7) :=
  (W4_of_ne m ρ c main_arg7 (by decide)).trans (a73 m ρ c)

/-! ## After the first aggregation -/

theorem src5 (c : Dev nD) : W5 m ρ c (Proc.devRef .tc main_v3) = Cert.Encoder.src (m ((c : Thread nD τ).loc main_arg1)) := by
  show StableHlo.after hostOps1 (W4 m ρ c) (Proc.devRef .tc main_v3) = _
  after_results_simp
  exact src4 m ρ c
theorem dst5 (c : Dev nD) : W5 m ρ c (Proc.devRef .tc main_v6) = Cert.Encoder.dst (m ((c : Thread nD τ).loc main_arg1)) := by
  show StableHlo.after hostOps1 (W4 m ρ c) (Proc.devRef .tc main_v6) = _
  after_results_simp
  exact dst4 m ρ c
theorem nrm5 (c : Dev nD) : W5 m ρ c (Proc.devRef .tc main_v31) = Cert.Encoder.nrm (m ((c : Thread nD τ).loc main_arg1)) := by
  show StableHlo.after hostOps1 (W4 m ρ c) (Proc.devRef .tc main_v31) = _
  after_results_simp
  exact nrm4 m ρ c
theorem a45 (c : Dev nD) : W5 m ρ c (Proc.devRef .tc main_arg4) = m ((c : Thread nD τ).loc main_arg4) := by
  show StableHlo.after hostOps1 (W4 m ρ c) (Proc.devRef .tc main_arg4) = _
  after_results_simp
  exact a44 m ρ c
theorem a55 (c : Dev nD) : W5 m ρ c (Proc.devRef .tc main_arg5) = m ((c : Thread nD τ).loc main_arg5) := by
  show StableHlo.after hostOps1 (W4 m ρ c) (Proc.devRef .tc main_arg5) = _
  after_results_simp
  exact a54 m ρ c
theorem a65 (c : Dev nD) : W5 m ρ c (Proc.devRef .tc main_arg6) = m ((c : Thread nD τ).loc main_arg6) := by
  show StableHlo.after hostOps1 (W4 m ρ c) (Proc.devRef .tc main_arg6) = _
  after_results_simp
  exact a64 m ρ c
theorem a75 (c : Dev nD) : W5 m ρ c (Proc.devRef .tc main_arg7) = m ((c : Thread nD τ).loc main_arg7) := by
  show StableHlo.after hostOps1 (W4 m ρ c) (Proc.devRef .tc main_arg7) = _
  after_results_simp
  exact a74 m ρ c

/-! ## After the hidden layer's bias and maximum -/

theorem src6 (c : Dev nD) : W6 m ρ c (Proc.devRef .tc main_v3) = Cert.Encoder.src (m ((c : Thread nD τ).loc main_arg1)) :=
  (W6_of_ne m ρ c main_v3 (by decide)).trans (src5 m ρ c)
theorem dst6 (c : Dev nD) : W6 m ρ c (Proc.devRef .tc main_v6) = Cert.Encoder.dst (m ((c : Thread nD τ).loc main_arg1)) :=
  (W6_of_ne m ρ c main_v6 (by decide)).trans (dst5 m ρ c)
theorem nrm6 (c : Dev nD) : W6 m ρ c (Proc.devRef .tc main_v31) = Cert.Encoder.nrm (m ((c : Thread nD τ).loc main_arg1)) :=
  (W6_of_ne m ρ c main_v31 (by decide)).trans (nrm5 m ρ c)
theorem a46 (c : Dev nD) : W6 m ρ c (Proc.devRef .tc main_arg4) = m ((c : Thread nD τ).loc main_arg4) :=
  (W6_of_ne m ρ c main_arg4 (by decide)).trans (a45 m ρ c)
theorem a56 (c : Dev nD) : W6 m ρ c (Proc.devRef .tc main_arg5) = m ((c : Thread nD τ).loc main_arg5) :=
  (W6_of_ne m ρ c main_arg5 (by decide)).trans (a55 m ρ c)
theorem a66 (c : Dev nD) : W6 m ρ c (Proc.devRef .tc main_arg6) = m ((c : Thread nD τ).loc main_arg6) :=
  (W6_of_ne m ρ c main_arg6 (by decide)).trans (a65 m ρ c)
theorem a76 (c : Dev nD) : W6 m ρ c (Proc.devRef .tc main_arg7) = m ((c : Thread nD τ).loc main_arg7) :=
  (W6_of_ne m ρ c main_arg7 (by decide)).trans (a75 m ρ c)

/-! ## After the second product -/

theorem src7 (c : Dev nD) : W7 m ρ c (Proc.devRef .tc main_v3) = Cert.Encoder.src (m ((c : Thread nD τ).loc main_arg1)) :=
  (W7_of_ne m ρ c main_v3 (by decide)).trans (src6 m ρ c)
theorem dst7 (c : Dev nD) : W7 m ρ c (Proc.devRef .tc main_v6) = Cert.Encoder.dst (m ((c : Thread nD τ).loc main_arg1)) :=
  (W7_of_ne m ρ c main_v6 (by decide)).trans (dst6 m ρ c)
theorem nrm7 (c : Dev nD) : W7 m ρ c (Proc.devRef .tc main_v31) = Cert.Encoder.nrm (m ((c : Thread nD τ).loc main_arg1)) :=
  (W7_of_ne m ρ c main_v31 (by decide)).trans (nrm6 m ρ c)
theorem a57 (c : Dev nD) : W7 m ρ c (Proc.devRef .tc main_arg5) = m ((c : Thread nD τ).loc main_arg5) :=
  (W7_of_ne m ρ c main_arg5 (by decide)).trans (a56 m ρ c)
theorem a67 (c : Dev nD) : W7 m ρ c (Proc.devRef .tc main_arg6) = m ((c : Thread nD τ).loc main_arg6) :=
  (W7_of_ne m ρ c main_arg6 (by decide)).trans (a66 m ρ c)
theorem a77 (c : Dev nD) : W7 m ρ c (Proc.devRef .tc main_arg7) = m ((c : Thread nD τ).loc main_arg7) :=
  (W7_of_ne m ρ c main_arg7 (by decide)).trans (a76 m ρ c)

/-! ## After the second aggregation -/

theorem src8 (c : Dev nD) : W8 m ρ c (Proc.devRef .tc main_v3) = Cert.Encoder.src (m ((c : Thread nD τ).loc main_arg1)) := by
  show StableHlo.after hostOps3 (W7 m ρ c) (Proc.devRef .tc main_v3) = _
  after_results_simp
  exact src7 m ρ c
theorem dst8 (c : Dev nD) : W8 m ρ c (Proc.devRef .tc main_v6) = Cert.Encoder.dst (m ((c : Thread nD τ).loc main_arg1)) := by
  show StableHlo.after hostOps3 (W7 m ρ c) (Proc.devRef .tc main_v6) = _
  after_results_simp
  exact dst7 m ρ c
theorem nrm8 (c : Dev nD) : W8 m ρ c (Proc.devRef .tc main_v31) = Cert.Encoder.nrm (m ((c : Thread nD τ).loc main_arg1)) := by
  show StableHlo.after hostOps3 (W7 m ρ c) (Proc.devRef .tc main_v31) = _
  after_results_simp
  exact nrm7 m ρ c
theorem a68 (c : Dev nD) : W8 m ρ c (Proc.devRef .tc main_arg6) = m ((c : Thread nD τ).loc main_arg6) := by
  show StableHlo.after hostOps3 (W7 m ρ c) (Proc.devRef .tc main_arg6) = _
  after_results_simp
  exact a67 m ρ c
theorem a78 (c : Dev nD) : W8 m ρ c (Proc.devRef .tc main_arg7) = m ((c : Thread nD τ).loc main_arg7) := by
  show StableHlo.after hostOps3 (W7 m ρ c) (Proc.devRef .tc main_arg7) = _
  after_results_simp
  exact a77 m ρ c

/-! ## After the first output's bias -/

theorem src9 (c : Dev nD) : W9 m ρ c (Proc.devRef .tc main_v3) = Cert.Encoder.src (m ((c : Thread nD τ).loc main_arg1)) :=
  (W9_of_ne m ρ c main_v3 (by decide)).trans (src8 m ρ c)
theorem dst9 (c : Dev nD) : W9 m ρ c (Proc.devRef .tc main_v6) = Cert.Encoder.dst (m ((c : Thread nD τ).loc main_arg1)) :=
  (W9_of_ne m ρ c main_v6 (by decide)).trans (dst8 m ρ c)
theorem nrm9 (c : Dev nD) : W9 m ρ c (Proc.devRef .tc main_v31) = Cert.Encoder.nrm (m ((c : Thread nD τ).loc main_arg1)) :=
  (W9_of_ne m ρ c main_v31 (by decide)).trans (nrm8 m ρ c)
theorem a69 (c : Dev nD) : W9 m ρ c (Proc.devRef .tc main_arg6) = m ((c : Thread nD τ).loc main_arg6) :=
  (W9_of_ne m ρ c main_arg6 (by decide)).trans (a68 m ρ c)
theorem a79 (c : Dev nD) : W9 m ρ c (Proc.devRef .tc main_arg7) = m ((c : Thread nD τ).loc main_arg7) :=
  (W9_of_ne m ρ c main_arg7 (by decide)).trans (a78 m ρ c)

/-! ## After the third product -/

theorem src10 (c : Dev nD) : W10 m ρ c (Proc.devRef .tc main_v3) = Cert.Encoder.src (m ((c : Thread nD τ).loc main_arg1)) :=
  (W10_of_ne m ρ c main_v3 (by decide)).trans (src9 m ρ c)
theorem dst10 (c : Dev nD) : W10 m ρ c (Proc.devRef .tc main_v6) = Cert.Encoder.dst (m ((c : Thread nD τ).loc main_arg1)) :=
  (W10_of_ne m ρ c main_v6 (by decide)).trans (dst9 m ρ c)
theorem nrm10 (c : Dev nD) : W10 m ρ c (Proc.devRef .tc main_v31) = Cert.Encoder.nrm (m ((c : Thread nD τ).loc main_arg1)) :=
  (W10_of_ne m ρ c main_v31 (by decide)).trans (nrm9 m ρ c)
theorem a710 (c : Dev nD) : W10 m ρ c (Proc.devRef .tc main_arg7) = m ((c : Thread nD τ).loc main_arg7) :=
  (W10_of_ne m ρ c main_arg7 (by decide)).trans (a79 m ρ c)

/-! ## The hidden array from the second region's exit to the fifth region's entry -/

/-- The third region reads the hidden array through an input window and leaves it as it found it. -/
theorem hid7 (c : Dev nD) : W7 m ρ c (Proc.devRef .tc main_v47) = W6 m ρ c (Proc.devRef .tc main_v47) :=
  (W7_arr m ρ c 0).trans (((dat2 (V6 m ρ) c).arrAt_in 0 rfl _).trans (A_eq2 (V6 m ρ) c 0))
theorem hid8 (c : Dev nD) : W8 m ρ c (Proc.devRef .tc main_v47) = W6 m ρ c (Proc.devRef .tc main_v47) := by
  show StableHlo.after hostOps3 (W7 m ρ c) (Proc.devRef .tc main_v47) = _
  after_results_simp
  exact hid7 m ρ c
theorem hid9 (c : Dev nD) : W9 m ρ c (Proc.devRef .tc main_v47) = W6 m ρ c (Proc.devRef .tc main_v47) :=
  (W9_of_ne m ρ c main_v47 (by decide)).trans (hid8 m ρ c)

/-! ## The first result from the fourth region's exit to the end -/

theorem mu10 (c : Dev nD) : W10 m ρ c (Proc.devRef .tc main_v63) = W9 m ρ c (Proc.devRef .tc main_v63) :=
  W10_of_ne m ρ c main_v63 (by decide)
theorem mu11 (c : Dev nD) : W11 m ρ c (Proc.devRef .tc main_v63) = W9 m ρ c (Proc.devRef .tc main_v63) := by
  show StableHlo.after hostOps5 (W10 m ρ c) (Proc.devRef .tc main_v63) = _
  after_results_simp
  exact mu10 m ρ c
theorem mu12 (c : Dev nD) : W12 m ρ c (Proc.devRef .tc main_v63) = W9 m ρ c (Proc.devRef .tc main_v63) :=
  (W12_of_ne m ρ c main_v63 (by decide)).trans (mu11 m ρ c)

end Cert.KernelIdeal.Carried

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.ProductRegions.lean ====
import proofs.«142807_j22084721836480_1_alg».proof.Proof.Gen.KernelIdeal.Frame
import proofs.«142807_j22084721836480_1_alg».proof.Proof.LibPlainProduct
import Idealize.ShloMosaic.Lib.Pipeline.Value

/-!
# The three product regions: each leaves in its output array the plain matrix product of the two arrays it reads

Each of the three regions walks ten row tiles. At tile `t` it reads rows `10000 t … 10000 t + 9999` of a
`100000 × 128` array `X` and the whole of a `128 × n` array `W` (`n = 128, 64, 64`), narrows both to bf16 — the identity
over the extended reals —, multiplies them into a zero accumulator and writes the `10000 × n` result back as rows
`10000 t …` of the output. Entry `(p, q)` of what tile `t` writes is `∑ k, X (10000 t + p, k) * W (k, q)`, which is
entry `(10000 t + p, q)` of the product `X · W`; row `r` lies in tile `r / 10000`, so the ten tiles fill the output,
and the output array ends as `X · W` whatever the arrays held when the region was entered.
-/

set_option maxRecDepth 16384

noncomputable section

namespace Cert.KernelIdeal.Product

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a rank-2 rectangle, however they are spelt. -/
theorem zeros2 : (![0, 0] : Fin 2 → Nat) = fun _ => 0 := funext fun a => by fin_cases a <;> rfl

-- the contents of every buffer of the core when a region is entered: each region's result is stated for any of them
variable (V : (c : Dev nD) → (b : Ref sig .tc) → Buf (Elt Ideal) ((c : Thread nD τ).loc b))

/-! ## The first product region: a 100000 × 128 array times a 128 × 128 array -/

/-- The block indices over the ten points, decided once: the first window and the output move together down the rows,
    the output's row-block index at point t is t, and every other block index is 0. -/
theorem idx0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the body stores, at entry (p, q): narrowing to bf16 is the identity over the extended reals and the accumulator
    starts at zero, so it is the contraction sum of the row p of the first block with the column q of the second. -/
theorem pay0_at (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  rw [PlainProduct.matmul_at dot_S10000x128_S128x128_S10000x128_1_0_0_1_n_n rfl none _ _ _ p q, constant_apply, Ideal.ofBits_zero_f32, zero_add]
  rfl

/-- The plain product of a 100000 × 128 by a 128 × 128 matrix at the index whose coordinates are (a, b): the sum over
    the contracted coordinate k of A (a, k) * B (k, b). -/
theorem prod0_at (A : FVec Ideal ⟨2, ![100000, 128]⟩ .f32) (B : FVec Ideal ⟨2, ![128, 128]⟩ .f32)
    (i : (⟨2, ![100000, 128]⟩ : Shape).Idx) (a : Fin 100000) (b : Fin 128) (ha : (i 0).val = a.val) (hb : (i 1).val = b.val) :
    Host.dotGeneral (DotDims.plain 100000 128 128) none A B i = ∑ k : Fin 128, A (ix2 a k) * B (ix2 k b) := by
  obtain ⟨a', b', rfl⟩ : ∃ (a' : Fin 100000) (b' : Fin 128), i = ix2 a' b' := ⟨i 0, i 1, eq_ix2 i⟩
  obtain rfl : a' = a := Fin.ext ha
  obtain rfl : b' = b := Fin.ext hb
  exact PlainProduct.dotGeneral_at _ rfl none A B a' b'

/-- The first window's block at point t is rows 10000 t … 10000 t + 9999 of its array. -/
theorem rows0 (c : Dev nD) (t : Fin cfg0.N) (p : Fin 10000) (k : Fin 128) (r : Fin 100000)
    (hr : r.val = t.val * 10000 + p.val) :
    (iblk0 V c 0 t : Vec Ideal S10000x128 .f32) (ix2 p k) = (V c main_arg0 : Vec Ideal S100000x128 .f32) (ix2 r k) := by
  obtain ⟨e0, e1, e2, e3, e4, e5⟩ := idx0 t
  unfold iblk0
  rw [View.read_apply]
  show V c main_arg0 _ = V c main_arg0 _
  congr 1
  funext a; apply Fin.ext
  match a with
  | ⟨0, _⟩ => show win0_0.index t 0 * 10000 + 1 * p.val = r.val; rw [e0, e4, hr]; omega
  | ⟨1, _⟩ => show win0_0.index t 1 * 128 + 1 * k.val = k.val; rw [e1]; omega

/-- The second window's block at every point is its whole array. -/
theorem whole0 (c : Dev nD) (t : Fin cfg0.N) (k : Fin 128) (q : Fin 128) :
    (iblk0 V c 1 t : Vec Ideal S128x128 .f32) (ix2 k q) = (V c main_arg2 : Vec Ideal S128x128 .f32) (ix2 k q) := by
  obtain ⟨e0, e1, e2, e3, e4, e5⟩ := idx0 t
  unfold iblk0
  rw [View.read_apply]
  show V c main_arg2 _ = V c main_arg2 _
  congr 1
  funext a; apply Fin.ext
  match a with
  | ⟨0, _⟩ => show win0_1.index t 0 * 128 + 1 * k.val = k.val; rw [e2]; omega
  | ⟨1, _⟩ => show win0_1.index t 1 * 128 + 1 * q.val = q.val; rw [e3]; omega

/-- What point t writes back is block t of the product of the two arrays as the region finds them: entry (p, q) of the
    body's result is the contraction sum over rows 10000 t + p of the first array and column q of the second, and the
    block's entry (p, q) sits at (10000 t + p, q) of the output. -/
theorem flushed0 (c : Dev nD) (t : Fin cfg0.N) :
    (dat0 V c).flushed 2 t = ((cfg0.win 2).blk t).view.read (Elt Ideal)
      (Host.dotGeneral (F := Ideal) (φ₁ := .f32) (φ₂ := .f32) (DotDims.plain 100000 128 128) none (V c main_arg0) (V c main_arg2)) := by
  show (cfg0.win 2).cut (grid0.coords t) ((dat0 V c).after 2 t) = _
  rw [after0_2]
  unfold out0_2
  rw [View.canon_unit_zero zeros2]
  simp only [View.ld_unit_zero (S := S10000x128) zeros2, View.ld_unit_zero (S := S128x128) zeros2]
  obtain ⟨e0, e1, e2, e3, e4, e5⟩ := idx0 t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
     = Host.dotGeneral (F := Ideal) (φ₁ := .f32) (φ₂ := .f32) (DotDims.plain 100000 128 128) none (V c main_arg0) (V c main_arg2)
         (((cfg0.win 2).blk t).view.emb (ix2 p q))
  have hp : p.val < 10000 := p.isLt
  have ht : t.val < 10 := lt_of_lt_of_eq t.isLt N_0
  refine (pay0_at _ _ p q).trans ?_
  refine ((prod0_at _ _ _ ⟨t.val * 10000 + p.val, by omega⟩ q ?_ ?_).trans ?_).symm
  · show win0_2.index t 0 * 10000 + 1 * p.val = t.val * 10000 + p.val; rw [e4]; omega
  · show win0_2.index t 1 * 128 + 1 * q.val = q.val; rw [e5]; omega
  · refine Finset.sum_congr rfl fun k _ => ?_
    rw [rows0 V c t p k ⟨t.val * 10000 + p.val, by omega⟩ rfl, whole0 V c t k q]

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v32).slice (win0_2.rect t)).set ↔ _
  rw [View.set_slice_whole, Rect.mem_set_unit]
  exact Iff.rfl

/-- Row r lies in the block of point r / 10000: the ten row tiles fill the output array. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, lt_of_lt_of_eq (by omega : (i 0).val / 10000 < 10) N_0.symm⟩, rfl⟩
  obtain ⟨e0, e1, e2, e3, e4, e5⟩ := idx0 t
  refine ⟨t, flush0_2 t, ?_⟩
  rw [mem_blk0]
  intro a
  match a with
  | ⟨0, _⟩ =>
    show win0_2.index t 0 * 10000 ≤ (i 0).val ∧ (i 0).val < win0_2.index t 0 * 10000 + 10000
    rw [e4, ht]; omega
  | ⟨1, _⟩ =>
    show win0_2.index t 1 * 128 ≤ (i 1).val ∧ (i 1).val < win0_2.index t 1 * 128 + 128
    rw [e5]; omega

/-- After the first product region its output array is the product of the two arrays the region was entered with. -/
theorem final0 (c : Dev nD) :
    (dat0 V c).arrAt 2 cfg0.N
      = Host.dotGeneral (F := Ideal) (φ₁ := .f32) (φ₂ := .f32) (DotDims.plain 100000 128 128) none (V c main_arg0) (V c main_arg2) :=
  (dat0 V c).arrAt_eq_of_cover 2 _ (fun t _ => flushed0 V c t) cover0

/-! ## The second product region: a 100000 × 128 array times a 128 × 64 array -/

/-- The block indices over the ten points, decided once: the first window and the output move together down the rows,
    the output's row-block index at point t is t, and every other block index is 0. -/
theorem idx2 : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What the body stores, at entry (p, q): narrowing to bf16 is the identity over the extended reals and the accumulator
    starts at zero, so it is the contraction sum of the row p of the first block with the column q of the second. -/
theorem pay2_at (x0 : Vec Ideal S10000x128 .f32) (x1 : Vec Ideal S128x64 .f32) (p : Fin 10000) (q : Fin 64) :
    k2_pay1 x0 x1 (ix2 p q) = ∑ k : Fin 128, x0 (ix2 p k) * x1 (ix2 k q) := by
  unfold k2_pay1
  rw [PlainProduct.matmul_at dot_S10000x128_S128x64_S10000x64_1_0_0_1_n_n rfl none _ _ _ p q, constant_apply, Ideal.ofBits_zero_f32, zero_add]
  simp only [shapeCast_self]
  rfl

/-- The plain product of a 100000 × 128 by a 128 × 64 matrix at the index whose coordinates are (a, b): the sum over
    the contracted coordinate k of A (a, k) * B (k, b). -/
theorem prod2_at (A : FVec Ideal ⟨2, ![100000, 128]⟩ .f32) (B : FVec Ideal ⟨2, ![128, 64]⟩ .f32)
    (i : (⟨2, ![100000, 64]⟩ : Shape).Idx) (a : Fin 100000) (b : Fin 64) (ha : (i 0).val = a.val) (hb : (i 1).val = b.val) :
    Host.dotGeneral (DotDims.plain 100000 128 64) none A B i = ∑ k : Fin 128, A (ix2 a k) * B (ix2 k b) := by
  obtain ⟨a', b', rfl⟩ : ∃ (a' : Fin 100000) (b' : Fin 64), i = ix2 a' b' := ⟨i 0, i 1, eq_ix2 i⟩
  obtain rfl : a' = a := Fin.ext ha
  obtain rfl : b' = b := Fin.ext hb
  exact PlainProduct.dotGeneral_at _ rfl none A B a' b'

/-- The first window's block at point t is rows 10000 t … 10000 t + 9999 of its array. -/
theorem rows2 (c : Dev nD) (t : Fin cfg2.N) (p : Fin 10000) (k : Fin 128) (r : Fin 100000)
    (hr : r.val = t.val * 10000 + p.val) :
    (iblk2 V c 0 t : Vec Ideal S10000x128 .f32) (ix2 p k) = (V c main_v47 : Vec Ideal S100000x128 .f32) (ix2 r k) := by
  obtain ⟨e0, e1, e2, e3, e4, e5⟩ := idx2 t
  unfold iblk2
  rw [View.read_apply]
  show V c main_v47 _ = V c main_v47 _
  congr 1
  funext a; apply Fin.ext
  match a with
  | ⟨0, _⟩ => show win2_0.index t 0 * 10000 + 1 * p.val = r.val; rw [e0, e4, hr]; omega
  | ⟨1, _⟩ => show win2_0.index t 1 * 128 + 1 * k.val = k.val; rw [e1]; omega

/-- The second window's block at every point is its whole array. -/
theorem whole2 (c : Dev nD) (t : Fin cfg2.N) (k : Fin 128) (q : Fin 64) :
    (iblk2 V c 1 t : Vec Ideal S128x64 .f32) (ix2 k q) = (V c main_arg4 : Vec Ideal S128x64 .f32) (ix2 k q) := by
  obtain ⟨e0, e1, e2, e3, e4, e5⟩ := idx2 t
  unfold iblk2
  rw [View.read_apply]
  show V c main_arg4 _ = V c main_arg4 _
  congr 1
  funext a; apply Fin.ext
  match a with
  | ⟨0, _⟩ => show win2_1.index t 0 * 128 + 1 * k.val = k.val; rw [e2]; omega
  | ⟨1, _⟩ => show win2_1.index t 1 * 64 + 1 * q.val = q.val; rw [e3]; omega

/-- What point t writes back is block t of the product of the two arrays as the region finds them: entry (p, q) of the
    body's result is the contraction sum over rows 10000 t + p of the first array and column q of the second, and the
    block's entry (p, q) sits at (10000 t + p, q) of the output. -/
theorem flushed2 (c : Dev nD) (t : Fin cfg2.N) :
    (dat2 V c).flushed 2 t = ((cfg2.win 2).blk t).view.read (Elt Ideal)
      (Host.dotGeneral (F := Ideal) (φ₁ := .f32) (φ₂ := .f32) (DotDims.plain 100000 128 64) none (V c main_v47) (V c main_arg4)) := by
  show (cfg2.win 2).cut (grid2.coords t) ((dat2 V c).after 2 t) = _
  rw [after2_2]
  unfold out2_2
  rw [View.canon_unit_zero zeros2]
  simp only [View.ld_unit_zero (S := S10000x128) zeros2, View.ld_unit_zero (S := S128x64) zeros2]
  obtain ⟨e0, e1, e2, e3, e4, e5⟩ := idx2 t
  funext j
  obtain ⟨p, q, rfl⟩ : ∃ (p : Fin 10000) (q : Fin 64), j = ix2 p q := ⟨j 0, j 1, eq_ix2 j⟩
  show k2_pay1 (iblk2 V c 0 t) (iblk2 V c 1 t) (ix2 p q)
     = Host.dotGeneral (F := Ideal) (φ₁ := .f32) (φ₂ := .f32) (DotDims.plain 100000 128 64) none (V c main_v47) (V c main_arg4)
         (((cfg2.win 2).blk t).view.emb (ix2 p q))
  have hp : p.val < 10000 := p.isLt
  have ht : t.val < 10 := lt_of_lt_of_eq t.isLt N_2
  refine (pay2_at _ _ p q).trans ?_
  refine ((prod2_at _ _ _ ⟨t.val * 10000 + p.val, by omega⟩ q ?_ ?_).trans ?_).symm
  · show win2_2.index t 0 * 10000 + 1 * p.val = t.val * 10000 + p.val; rw [e4]; omega
  · show win2_2.index t 1 * 64 + 1 * q.val = q.val; rw [e5]; omega
  · refine Finset.sum_congr rfl fun k _ => ?_
    rw [rows2 V c t p k ⟨t.val * 10000 + p.val, by omega⟩ rfl, whole2 V c t k q]

/-- An index of the output array is in point t's block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v48).slice (win2_2.rect t)).set ↔ _
  rw [View.set_slice_whole, Rect.mem_set_unit]
  exact Iff.rfl

/-- Row r lies in the block of point r / 10000: the ten row tiles fill the output array. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, lt_of_lt_of_eq (by omega : (i 0).val / 10000 < 10) N_2.symm⟩, rfl⟩
  obtain ⟨e0, e1, e2, e3, e4, e5⟩ := idx2 t
  refine ⟨t, flush2_2 t, ?_⟩
  rw [mem_blk2]
  intro a
  match a with
  | ⟨0, _⟩ =>
    show win2_2.index t 0 * 10000 ≤ (i 0).val ∧ (i 0).val < win2_2.index t 0 * 10000 + 10000
    rw [e4, ht]; omega
  | ⟨1, _⟩ =>
    show win2_2.index t 1 * 64 ≤ (i 1).val ∧ (i 1).val < win2_2.index t 1 * 64 + 64
    rw [e5]; omega

/-- After the second product region its output array is the product of the two arrays the region was entered with. -/
theorem final2 (c : Dev nD) :
    (dat2 V c).arrAt 2 cfg2.N
      = Host.dotGeneral (F := Ideal) (φ₁ := .f32) (φ₂ := .f32) (DotDims.plain 100000 128 64) none (V c main_v47) (V c main_arg4) :=
  (dat2 V c).arrAt_eq_of_cover 2 _ (fun t _ => flushed2 V c t) cover2

/-! ## The third product region: a 100000 × 128 array times a 128 × 64 array -/

/-- The block indices over the ten points, decided once: the first window and the output move together down the rows,
    the output's row-block index at point t is t, and every other block index is 0. -/
theorem idx4 : ∀ t : Fin cfg4.N, win4_0.index t (0 : Fin 2) = win4_2.index t (0 : Fin 2)
    ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What the body stores, at entry (p, q): narrowing to bf16 is the identity over the extended reals and the accumulator
    starts at zero, so it is the contraction sum of the row p of the first block with the column q of the second. -/
theorem pay4_at (x0 : Vec Ideal S10000x128 .f32) (x1 : Vec Ideal S128x64 .f32) (p : Fin 10000) (q : Fin 64) :
    k4_pay1 x0 x1 (ix2 p q) = ∑ k : Fin 128, x0 (ix2 p k) * x1 (ix2 k q) := by
  unfold k4_pay1
  rw [PlainProduct.matmul_at dot_S10000x128_S128x64_S10000x64_1_0_0_1_n_n rfl none _ _ _ p q, constant_apply, Ideal.ofBits_zero_f32, zero_add]
  simp only [shapeCast_self]
  rfl

/-- The first window's block at point t is rows 10000 t … 10000 t + 9999 of its array. -/
theorem rows4 (c : Dev nD) (t : Fin cfg4.N) (p : Fin 10000) (k : Fin 128) (r : Fin 100000)
    (hr : r.val = t.val * 10000 + p.val) :
    (iblk4 V c 0 t : Vec Ideal S10000x128 .f32) (ix2 p k) = (V c main_v47 : Vec Ideal S100000x128 .f32) (ix2 r k) := by
  obtain ⟨e0, e1, e2, e3, e4, e5⟩ := idx4 t
  unfold iblk4
  rw [View.read_apply]
  show V c main_v47 _ = V c main_v47 _
  congr 1
  funext a; apply Fin.ext
  match a with
  | ⟨0, _⟩ => show win4_0.index t 0 * 10000 + 1 * p.val = r.val; rw [e0, e4, hr]; omega
  | ⟨1, _⟩ => show win4_0.index t 1 * 128 + 1 * k.val = k.val; rw [e1]; omega

/-- The second window's block at every point is its whole array. -/
theorem whole4 (c : Dev nD) (t : Fin cfg4.N) (k : Fin 128) (q : Fin 64) :
    (iblk4 V c 1 t : Vec Ideal S128x64 .f32) (ix2 k q) = (V c main_arg6 : Vec Ideal S128x64 .f32) (ix2 k q) := by
  obtain ⟨e0, e1, e2, e3, e4, e5⟩ := idx4 t
  unfold iblk4
  rw [View.read_apply]
  show V c main_arg6 _ = V c main_arg6 _
  congr 1
  funext a; apply Fin.ext
  match a with
  | ⟨0, _⟩ => show win4_1.index t 0 * 128 + 1 * k.val = k.val; rw [e2]; omega
  | ⟨1, _⟩ => show win4_1.index t 1 * 64 + 1 * q.val = q.val; rw [e3]; omega

/-- What point t writes back is block t of the product of the two arrays as the region finds them: entry (p, q) of the
    body's result is the contraction sum over rows 10000 t + p of the first array and column q of the second, and the
    block's entry (p, q) sits at (10000 t + p, q) of the output. -/
theorem flushed4 (c : Dev nD) (t : Fin cfg4.N) :
    (dat4 V c).flushed 2 t = ((cfg4.win 2).blk t).view.read (Elt Ideal)
      (Host.dotGeneral (F := Ideal) (φ₁ := .f32) (φ₂ := .f32) (DotDims.plain 100000 128 64) none (V c main_v47) (V c main_arg6)) := by
  show (cfg4.win 2).cut (grid4.coords t) ((dat4 V c).after 2 t) = _
  rw [after4_2]
  unfold out4_2
  rw [View.canon_unit_zero zeros2]
  simp only [View.ld_unit_zero (S := S10000x128) zeros2, View.ld_unit_zero (S := S128x64) zeros2]
  obtain ⟨e0, e1, e2, e3, e4, e5⟩ := idx4 t
  funext j
  obtain ⟨p, q, rfl⟩ : ∃ (p : Fin 10000) (q : Fin 64), j = ix2 p q := ⟨j 0, j 1, eq_ix2 j⟩
  show k4_pay1 (iblk4 V c 0 t) (iblk4 V c 1 t) (ix2 p q)
     = Host.dotGeneral (F := Ideal) (φ₁ := .f32) (φ₂ := .f32) (DotDims.plain 100000 128 64) none (V c main_v47) (V c main_arg6)
         (((cfg4.win 2).blk t).view.emb (ix2 p q))
  have hp : p.val < 10000 := p.isLt
  have ht : t.val < 10 := lt_of_lt_of_eq t.isLt N_4
  refine (pay4_at _ _ p q).trans ?_
  refine ((prod2_at _ _ _ ⟨t.val * 10000 + p.val, by omega⟩ q ?_ ?_).trans ?_).symm
  · show win4_2.index t 0 * 10000 + 1 * p.val = t.val * 10000 + p.val; rw [e4]; omega
  · show win4_2.index t 1 * 64 + 1 * q.val = q.val; rw [e5]; omega
  · refine Finset.sum_congr rfl fun k _ => ?_
    rw [rows4 V c t p k ⟨t.val * 10000 + p.val, by omega⟩ rfl, whole4 V c t k q]

/-- An index of the output array is in point t's block iff each coordinate is in the block's range on its axis. -/
theorem mem_blk4 (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v64).slice (win4_2.rect t)).set ↔ _
  rw [View.set_slice_whole, Rect.mem_set_unit]
  exact Iff.rfl

/-- Row r lies in the block of point r / 10000: the ten row tiles fill the output array. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ : ∃ t : Fin cfg4.N, t.val = (i 0).val / 10000 :=
    ⟨⟨(i 0).val / 10000, lt_of_lt_of_eq (by omega : (i 0).val / 10000 < 10) N_4.symm⟩, rfl⟩
  obtain ⟨e0, e1, e2, e3, e4, e5⟩ := idx4 t
  refine ⟨t, flush4_2 t, ?_⟩
  rw [mem_blk4]
  intro a
  match a with
  | ⟨0, _⟩ =>
    show win4_2.index t 0 * 10000 ≤ (i 0).val ∧ (i 0).val < win4_2.index t 0 * 10000 + 10000
    rw [e4, ht]; omega
  | ⟨1, _⟩ =>
    show win4_2.index t 1 * 64 ≤ (i 1).val ∧ (i 1).val < win4_2.index t 1 * 64 + 64
    rw [e5]; omega

/-- After the third product region its output array is the product of the two arrays the region was entered with. -/
theorem final4 (c : Dev nD) :
    (dat4 V c).arrAt 2 cfg4.N
      = Host.dotGeneral (F := Ideal) (φ₁ := .f32) (φ₂ := .f32) (DotDims.plain 100000 128 64) none (V c main_v47) (V c main_arg6) :=
  (dat4 V c).arrAt_eq_of_cover 2 _ (fun t _ => flushed4 V c t) cover4

end Cert.KernelIdeal.Product

end
-- ==== Proof.BiasRegions.lean ====
/- The three bias regions of the kernel, each read as ONE whole-array function of the arrays the region finds.

   A bias region walks the ten row tiles of a [100000, c] array. At a tile it loads the tile and the one-row bias
   [1, c], lays the row along every row of the tile, adds, (in the first layer) takes the maximum with zero, and
   stores the tile of the result. Every tile is written back, and the ten tiles cover the array, so after the region
   the result array is, index by index, "entry (r, k) of the input plus entry (0, k) of the row" — which is what
   adding the row broadcast along axis 0 to the whole input array says. The right-hand sides below are spelled with
   the whole-array operations: a sum of the input array with the row broadcast in dimensions [0, 1], and for the
   first layer the maximum of that with a broadcast scalar zero. -/
import proofs.«142807_j22084721836480_1_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.BiasRow

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- A load or a store at offsets (0, 0) of a buffer is of the whole buffer. -/
theorem offsets_zero : (![0, 0] : Fin 2 → Nat) = fun _ => 0 := funext fun a => by fin_cases a <;> rfl

/-! ## The bias region after the second product (64 columns) -/

/-- The whole-array result: the input array plus the one-row bias broadcast along the rows. -/
abbrev rowSum64 (a : S100000x64.Idx → Elt F .f32) (b : S1x64.Idx → Elt F .f32)
    (h1 : S1x64.BroadcastsInDim S100000x64 (![0, 1] : Fin 2 → Fin S100000x64.rank)) : S100000x64.Idx → Elt F .f32 :=
  addf (φ := .f32) a (broadcastInDim S100000x64 ![0, 1] h1 b)

/-- The whole-array result at an index: entry (r, k) of the input plus entry (0, k) of the row. -/
theorem rowSum64_apply (a : S100000x64.Idx → Elt F .f32) (b : S1x64.Idx → Elt F .f32)
    (h1 : S1x64.BroadcastsInDim S100000x64 (![0, 1] : Fin 2 → Fin S100000x64.rank)) (r : Fin 100000) (k : Fin 64) :
    rowSum64 a b h1 (ix2 r k) = FloatOps.addf (a (ix2 r k)) (b (ix2 (0 : Fin 1) k)) := by
  show FloatOps.addf (a (ix2 r k)) (broadcastInDim S100000x64 ![0, 1] h1 b (ix2 r k)) = _
  rw [broadcastInDim_oneRow_apply]

/-- The body's stored value at an index of the tile: the tile's entry plus the loaded row's entry of that column. -/
theorem tileSum3_apply (x0 : Vec F S10000x64 .f32) (x1 : Vec F S1x64 .f32) (p : Fin 10000) (q : Fin 64) :
    k3_pay1 x0 x1 (ix2 p q) = FloatOps.addf (x0 (ix2 p q)) (x1 (ix2 (0 : Fin 1) q)) := by
  unfold k3_pay1
  show FloatOps.addf (shapeCast S10000x64 x0 _ (ix2 p q)) (broadcastTo S10000x64 (shapeCast S1x64 x1 _) _ (ix2 p q)) = _
  rw [shapeCast_self, shapeCast_self, broadcastTo_1b_ab_apply]

/-- The printed index maps, decided over the ten points: the input tile moves with the output tile, the row's block is
    always the whole row, and the output tile at point `t` is row tile `t`. -/
theorem tile_facts3 : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is tile `t` of the whole-array result of the arrays the region finds. -/
theorem flushed3_eq (c : Dev nD) (h1 : S1x64.BroadcastsInDim S100000x64 (![0, 1] : Fin 2 → Fin S100000x64.rank))
    (t : Fin cfg3.N) :
    (dat3 V c).flushed 2 t = ((cfg3.win 2).blk t).view.read (Elt F) (rowSum64 (V c main_v61) (V c main_v62) h1) := by
  show (cfg3.win 2).cut (grid3.coords t) ((dat3 V c).after 2 t) = _
  rw [after3_2]
  unfold out3_2
  rw [View.canon_unit_zero offsets_zero]
  simp only [View.ld_unit_zero (S := S10000x64) offsets_zero, View.ld_unit_zero (S := S1x64) offsets_zero]
  obtain ⟨e0, e1, e2, e3, e4, e5⟩ := tile_facts3 t
  have ht : t.val < 10 := Nat.lt_of_lt_of_eq t.isLt N_3
  funext j
  obtain ⟨p, q, rfl⟩ : ∃ (p : Fin 10000) (q : Fin 64), j = ix2 p q := ⟨j 0, j 1, eq_ix2 j⟩
  have hp : p.val < 10000 := p.isLt
  -- the tile's entry (p, q) sits at row 10000 t + p, column q of the array
  have hemb : ((cfg3.win 2).blk t).view.emb (ix2 p q)
      = (ix2 (⟨t.val * 10000 + p.val, by omega⟩ : Fin 100000) q : S100000x64.Idx) := by
    funext a; apply Fin.ext
    match a with
    | ⟨0, _⟩ => show win3_2.index t (0 : Fin 2) * 10000 + 1 * p.val = t.val * 10000 + p.val; omega
    | ⟨1, _⟩ => show win3_2.index t (1 : Fin 2) * 64 + 1 * q.val = q.val; omega
  show k3_pay1 (iblk3 V c 0 t) (iblk3 V c 1 t) (ix2 p q)
    = rowSum64 (V c main_v61) (V c main_v62) h1 (((cfg3.win 2).blk t).view.emb (ix2 p q))
  refine (tileSum3_apply _ _ p q).trans ?_
  refine Eq.trans ?_ (congrArg (rowSum64 (V c main_v61) (V c main_v62) h1) hemb.symm)
  rw [rowSum64_apply]
  congr 1
  · show V c main_v61 (((cfg3.win 0).blk t).view.emb (ix2 p q)) = _
    refine congrArg (V c main_v61) (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * q.val = q.val; omega
  · show V c main_v62 (((cfg3.win 1).blk t).view.emb (ix2 (0 : Fin 1) q)) = _
    refine congrArg (V c main_v62) (funext fun a => Fin.ext ?_)
    match a with
    | ⟨0, _⟩ => show win3_1.index t (0 : Fin 2) * 1 + 1 * 0 = 0; omega
    | ⟨1, _⟩ => show win3_1.index t (1 : Fin 2) * 64 + 1 * q.val = q.val; omega

/-- An index of the array is in point `t`'s tile iff each coordinate is in the tile's range on its axis. -/
theorem mem_tile3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v63).slice (win3_2.rect t)).set ↔ _
  rw [View.set_slice_whole, Rect.mem_set_unit]
  exact Iff.rfl

/-- Every index of the array is in the tile of some point that writes back: row `r` is in tile `r / 10000`. -/
theorem tiles_cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 10000 :=
    ⟨⟨(i 0).val / 10000, by rw [show cfg3.N = 10 from N_3]; omega⟩, rfl⟩
  obtain ⟨e0, e1, e2, e3, e4, e5⟩ := tile_facts3 t
  refine ⟨t, flush3_2 t, ?_⟩
  rw [mem_tile3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- THE ARRAY after the region: the region's input array plus the bias row broadcast along the rows. -/
theorem final3 (c : Dev nD) (h1 : S1x64.BroadcastsInDim S100000x64 (![0, 1] : Fin 2 → Fin S100000x64.rank)) :
    (dat3 V c).arrAt 2 cfg3.N
      = addf (φ := .f32) (V c main_v61) (broadcastInDim S100000x64 ![0, 1] h1 (V c main_v62)) :=
  (dat3 V c).arrAt_eq_of_cover 2 (rowSum64 (V c main_v61) (V c main_v62) h1) (fun t _ => flushed3_eq V c h1 t) tiles_cover3

/-! ## The bias region after the third product (64 columns) -/

/-- The body's stored value at an index of the tile: the tile's entry plus the loaded row's entry of that column. -/
theorem tileSum5_apply (x0 : Vec F S10000x64 .f32) (x1 : Vec F S1x64 .f32) (p : Fin 10000) (q : Fin 64) :
    k5_pay1 x0 x1 (ix2 p q) = FloatOps.addf (x0 (ix2 p q)) (x1 (ix2 (0 : Fin 1) q)) := by
  unfold k5_pay1
  show FloatOps.addf (shapeCast S10000x64 x0 _ (ix2 p q)) (broadcastTo S10000x64 (shapeCast S1x64 x1 _) _ (ix2 p q)) = _
  rw [shapeCast_self, shapeCast_self, broadcastTo_1b_ab_apply]

/-- The printed index maps, decided over the ten points: the input tile moves with the output tile, the row's block is
    always the whole row, and the output tile at point `t` is row tile `t`. -/
theorem tile_facts5 : ∀ t : Fin cfg5.N, win5_0.index t (0 : Fin 2) = win5_2.index t (0 : Fin 2)
    ∧ win5_0.index t (1 : Fin 2) = win5_2.index t (1 : Fin 2)
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is tile `t` of the whole-array result of the arrays the region finds. -/
theorem flushed5_eq (c : Dev nD) (h1 : S1x64.BroadcastsInDim S100000x64 (![0, 1] : Fin 2 → Fin S100000x64.rank))
    (t : Fin cfg5.N) :
    (dat5 V c).flushed 2 t = ((cfg5.win 2).blk t).view.read (Elt F) (rowSum64 (V c main_v77) (V c main_v78) h1) := by
  show (cfg5.win 2).cut (grid5.coords t) ((dat5 V c).after 2 t) = _
  rw [after5_2]
  unfold out5_2
  rw [View.canon_unit_zero offsets_zero]
  simp only [View.ld_unit_zero (S := S10000x64) offsets_zero, View.ld_unit_zero (S := S1x64) offsets_zero]
  obtain ⟨e0, e1, e2, e3, e4, e5⟩ := tile_facts5 t
  have ht : t.val < 10 := Nat.lt_of_lt_of_eq t.isLt N_5
  funext j
  obtain ⟨p, q, rfl⟩ : ∃ (p : Fin 10000) (q : Fin 64), j = ix2 p q := ⟨j 0, j 1, eq_ix2 j⟩
  have hp : p.val < 10000 := p.isLt
  -- the tile's entry (p, q) sits at row 10000 t + p, column q of the array
  have hemb : ((cfg5.win 2).blk t).view.emb (ix2 p q)
      = (ix2 (⟨t.val * 10000 + p.val, by omega⟩ : Fin 100000) q : S100000x64.Idx) := by
    funext a; apply Fin.ext
    match a with
    | ⟨0, _⟩ => show win5_2.index t (0 : Fin 2) * 10000 + 1 * p.val = t.val * 10000 + p.val; omega
    | ⟨1, _⟩ => show win5_2.index t (1 : Fin 2) * 64 + 1 * q.val = q.val; omega
  show k5_pay1 (iblk5 V c 0 t) (iblk5 V c 1 t) (ix2 p q)
    = rowSum64 (V c main_v77) (V c main_v78) h1 (((cfg5.win 2).blk t).view.emb (ix2 p q))
  refine (tileSum5_apply _ _ p q).trans ?_
  refine Eq.trans ?_ (congrArg (rowSum64 (V c main_v77) (V c main_v78) h1) hemb.symm)
  rw [rowSum64_apply]
  congr 1
  · show V c main_v77 (((cfg5.win 0).blk t).view.emb (ix2 p q)) = _
    refine congrArg (V c main_v77) (funext fun a => Fin.ext ?_)
    match a with
    | ⟨0, _⟩ => show win5_0.index t (0 : Fin 2) * 10000 + 1 * p.val = t.val * 10000 + p.val; omega
    | ⟨1, _⟩ => show win5_0.index t (1 : Fin 2) * 64 + 1 * q.val = q.val; omega
  · show V c main_v78 (((cfg5.win 1).blk t).view.emb (ix2 (0 : Fin 1) q)) = _
    refine congrArg (V c main_v78) (funext fun a => Fin.ext ?_)
    match a with
    | ⟨0, _⟩ => show win5_1.index t (0 : Fin 2) * 1 + 1 * 0 = 0; omega
    | ⟨1, _⟩ => show win5_1.index t (1 : Fin 2) * 64 + 1 * q.val = q.val; omega

/-- An index of the array is in point `t`'s tile iff each coordinate is in the tile's range on its axis. -/
theorem mem_tile5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v79).slice (win5_2.rect t)).set ↔ _
  rw [View.set_slice_whole, Rect.mem_set_unit]
  exact Iff.rfl

/-- Every index of the array is in the tile of some point that writes back: row `r` is in tile `r / 10000`. -/
theorem tiles_cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ : ∃ t : Fin cfg5.N, t.val = (i 0).val / 10000 :=
    ⟨⟨(i 0).val / 10000, by rw [show cfg5.N = 10 from N_5]; omega⟩, rfl⟩
  obtain ⟨e0, e1, e2, e3, e4, e5⟩ := tile_facts5 t
  refine ⟨t, flush5_2 t, ?_⟩
  rw [mem_tile5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- THE ARRAY after the region: the region's input array plus the bias row broadcast along the rows. -/
theorem final5 (c : Dev nD) (h1 : S1x64.BroadcastsInDim S100000x64 (![0, 1] : Fin 2 → Fin S100000x64.rank)) :
    (dat5 V c).arrAt 2 cfg5.N
      = addf (φ := .f32) (V c main_v77) (broadcastInDim S100000x64 ![0, 1] h1 (V c main_v78)) :=
  (dat5 V c).arrAt_eq_of_cover 2 (rowSum64 (V c main_v77) (V c main_v78) h1) (fun t _ => flushed5_eq V c h1 t) tiles_cover5

/-! ## The bias region after the first product (128 columns), which also takes the maximum with zero -/

/-- The whole-array result: the input array plus the one-row bias broadcast along the rows, then the maximum with a
    broadcast scalar zero. -/
abbrev rowSumMax128 (a : S100000x128.Idx → Elt F .f32) (b : S1x128.Idx → Elt F .f32)
    (h1 : S1x128.BroadcastsInDim S100000x128 (![0, 1] : Fin 2 → Fin S100000x128.rank))
    (h0 : S_.BroadcastsInDim S100000x128 (![] : Fin 0 → Fin S100000x128.rank)) : S100000x128.Idx → Elt F .f32 :=
  maximumf (φ := .f32) (addf (φ := .f32) a (broadcastInDim S100000x128 ![0, 1] h1 b))
      (broadcastInDim S100000x128 ![] h0 (constant (F := F) S_ .f32 0x00000000#32))

/-- The whole-array result at an index: the larger of zero and entry (r, k) of the input plus entry (0, k) of the row. -/
theorem rowSumMax128_apply (a : S100000x128.Idx → Elt F .f32) (b : S1x128.Idx → Elt F .f32)
    (h1 : S1x128.BroadcastsInDim S100000x128 (![0, 1] : Fin 2 → Fin S100000x128.rank))
    (h0 : S_.BroadcastsInDim S100000x128 (![] : Fin 0 → Fin S100000x128.rank)) (r : Fin 100000) (k : Fin 128) :
    rowSumMax128 a b h1 h0 (ix2 r k)
      = FloatOps.maximumf (FloatOps.addf (a (ix2 r k)) (b (ix2 (0 : Fin 1) k))) (Scalar.ofBits (F := F) .f32 0x00000000#32) := by
  show FloatOps.maximumf (FloatOps.addf (a (ix2 r k)) (broadcastInDim S100000x128 ![0, 1] h1 b (ix2 r k)))
    (broadcastInDim S100000x128 ![] h0 (constant (F := F) S_ .f32 0x00000000#32) (ix2 r k)) = _
  rw [broadcastInDim_oneRow_apply, broadcastInDim_constant, broadcast_apply]

/-- The body's stored value at an index of the tile: the larger of zero and the tile's entry plus the loaded row's
    entry of that column. -/
theorem tileSum1_apply (x0 : Vec F S10000x128 .f32) (x1 : Vec F S1x128 .f32) (p : Fin 10000) (q : Fin 128) :
    k1_pay1 x0 x1 (ix2 p q)
      = FloatOps.maximumf (FloatOps.addf (x0 (ix2 p q)) (x1 (ix2 (0 : Fin 1) q))) (Scalar.ofBits (F := F) .f32 0x00000000#32) := by
  unfold k1_pay1
  show FloatOps.maximumf (FloatOps.addf (shapeCast S10000x128 x0 _ (ix2 p q)) (broadcastTo S10000x128 (shapeCast S1x128 x1 _) _ (ix2 p q)))
    (broadcast S10000x128 (Scalar.ofBits (F := F) .f32 0x00000000#32) (ix2 p q)) = _
  rw [shapeCast_self, shapeCast_self, broadcastTo_1b_ab_apply, broadcast_apply]

/-- The printed index maps, decided over the ten points: the input tile moves with the output tile, the row's block is
    always the whole row, and the output tile at point `t` is row tile `t`. -/
theorem tile_facts1 : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is tile `t` of the whole-array result of the arrays the region finds. -/
theorem flushed1_eq (c : Dev nD) (h1 : S1x128.BroadcastsInDim S100000x128 (![0, 1] : Fin 2 → Fin S100000x128.rank))
    (h0 : S_.BroadcastsInDim S100000x128 (![] : Fin 0 → Fin S100000x128.rank))
    (t : Fin cfg1.N) :
    (dat1 V c).flushed 2 t = ((cfg1.win 2).blk t).view.read (Elt F) (rowSumMax128 (V c main_v45) (V c main_v46) h1 h0) := by
  show (cfg1.win 2).cut (grid1.coords t) ((dat1 V c).after 2 t) = _
  rw [after1_2]
  unfold out1_2
  rw [View.canon_unit_zero offsets_zero]
  simp only [View.ld_unit_zero (S := S10000x128) offsets_zero, View.ld_unit_zero (S := S1x128) offsets_zero]
  obtain ⟨e0, e1, e2, e3, e4, e5⟩ := tile_facts1 t
  have ht : t.val < 10 := Nat.lt_of_lt_of_eq t.isLt N_1
  funext j
  obtain ⟨p, q, rfl⟩ : ∃ (p : Fin 10000) (q : Fin 128), j = ix2 p q := ⟨j 0, j 1, eq_ix2 j⟩
  have hp : p.val < 10000 := p.isLt
  -- the tile's entry (p, q) sits at row 10000 t + p, column q of the array
  have hemb : ((cfg1.win 2).blk t).view.emb (ix2 p q)
      = (ix2 (⟨t.val * 10000 + p.val, by omega⟩ : Fin 100000) q : S100000x128.Idx) := by
    funext a; apply Fin.ext
    match a with
    | ⟨0, _⟩ => show win1_2.index t (0 : Fin 2) * 10000 + 1 * p.val = t.val * 10000 + p.val; omega
    | ⟨1, _⟩ => show win1_2.index t (1 : Fin 2) * 128 + 1 * q.val = q.val; omega
  show k1_pay1 (iblk1 V c 0 t) (iblk1 V c 1 t) (ix2 p q)
    = rowSumMax128 (V c main_v45) (V c main_v46) h1 h0 (((cfg1.win 2).blk t).view.emb (ix2 p q))
  refine (tileSum1_apply _ _ p q).trans ?_
  refine Eq.trans ?_ (congrArg (rowSumMax128 (V c main_v45) (V c main_v46) h1 h0) hemb.symm)
  rw [rowSumMax128_apply]
  congr 2
  · show V c main_v45 (((cfg1.win 0).blk t).view.emb (ix2 p q)) = _
    refine congrArg (V c main_v45) (funext fun a => Fin.ext ?_)
    match a with
    | ⟨0, _⟩ => show win1_0.index t (0 : Fin 2) * 10000 + 1 * p.val = t.val * 10000 + p.val; omega
    | ⟨1, _⟩ => show win1_0.index t (1 : Fin 2) * 128 + 1 * q.val = q.val; omega
  · show V c main_v46 (((cfg1.win 1).blk t).view.emb (ix2 (0 : Fin 1) q)) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega

/-- An index of the array is in point `t`'s tile iff each coordinate is in the tile's range on its axis. -/
theorem mem_tile1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- Every index of the array is in the tile of some point that writes back: row `r` is in tile `r / 10000`. -/
theorem tiles_cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, by rw [show cfg1.N = 10 from N_1]; omega⟩, rfl⟩
  obtain ⟨e0, e1, e2, e3, e4, e5⟩ := tile_facts1 t
  refine ⟨t, flush1_2 t, ?_⟩
  rw [mem_tile1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- THE ARRAY after the region: the larger of zero and the region's input array plus the bias row broadcast along the rows. -/
theorem final1 (c : Dev nD) (h1 : S1x128.BroadcastsInDim S100000x128 (![0, 1] : Fin 2 → Fin S100000x128.rank))
    (h0 : S_.BroadcastsInDim S100000x128 (![] : Fin 0 → Fin S100000x128.rank)) :
    (dat1 V c).arrAt 2 cfg1.N
      = maximumf (φ := .f32) (addf (φ := .f32) (V c main_v45) (broadcastInDim S100000x128 ![0, 1] h1 (V c main_v46)))
      (broadcastInDim S100000x128 ![] h0 (constant (F := F) S_ .f32 0x00000000#32)) :=
  (dat1 V c).arrAt_eq_of_cover 2 (rowSumMax128 (V c main_v45) (V c main_v46) h1 h0) (fun t _ => flushed1_eq V c h1 h0 t) tiles_cover1

end Cert.KernelIdeal.BiasRow

end
-- ==== Proof.KernelLayers.lean ====
import proofs.«142807_j22084721836480_1_alg».proof.Proof.KernelCarried
import proofs.«142807_j22084721836480_1_alg».proof.Proof.ProductRegions
import proofs.«142807_j22084721836480_1_alg».proof.Proof.BiasRegions
import Idealize.ShloMosaic.Lib.ValueLayout
import Idealize.ShloMosaic.Lib.ValueIdx
import Idealize.ShloMosaic.Lib.Pipeline.Value

/-!
# The kernel program computes the encoder

Each of the six tiled regions leaves in its output array one whole-array function of its two input arrays: a matrix
product (regions one, three and five) or a bias row added to every node's row, for the hidden layer followed by a
maximum with zero (regions two, four and six). The stretches of host operations between them are the encoder's
aggregations of the edge list prepared at the start. Composing the segments in order, the two result buffers hold the
encoder's two output layers over its hidden array. The kernel reshapes a bias vector to a one-row matrix where the
reference broadcasts it along a new leading axis: the same matrix.
-/

set_option maxRecDepth 16384

noncomputable section

namespace Cert.KernelIdeal.Layers

open Cert.KernelIdeal Cert.KernelIdeal.Gen Cert.KernelIdeal.Carried
open Idealize.ShloMosaic Idealize.ShloMosaic.TcCoe Idealize.ShloMosaic.Tactic Idealize.ShloMosaic.StableHlo Idealize.ShloMosaic.ValueIdx
open Idealize.SL.Sem

/-- A vector reshaped to a one-row matrix is the vector broadcast along a new leading axis. -/
theorem row_cast {a : ℕ} {α : Type} (x : (⟨1, ![a]⟩ : Shape).Idx → α) (hc : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x hc = broadcastInDim ⟨2, ![1, a]⟩ ![1] hb x := by
  funext j
  obtain ⟨u, i, rfl⟩ : ∃ (u : Fin 1) (i : Fin a), j = ix2 u i := ⟨j 0, j 1, eq_ix2 j⟩
  rw [shapeCast_a_1a_apply]
  refine (broadcastInDim_apply _ hb x _ (ix1 i) (fun d => ?_)).symm
  match d with
  | ⟨0, _⟩ =>
    show i.val = if a = 1 then 0 else i.val
    split
    · omega
    · rfl

variable (m : (ℓ : Loc nD τ sig) → Buf (Elt Ideal) ℓ) (ρ : Dev nD → PrngReg)

/-! ## The hidden layer -/

/-- The first region's output is the product of the node features with the first weight matrix. -/
theorem prod1 (c : Dev nD) : W4 m ρ c (Proc.devRef .tc main_v32)
    = Host.dotGeneral (F := Ideal) (φ₁ := .f32) (φ₂ := .f32) (DotDims.plain 100000 128 128) none (m ((c : Thread nD τ).loc main_arg0)) (m ((c : Thread nD τ).loc main_arg2)) := by
  refine (W4_arr m ρ c 2).trans ((Cert.KernelIdeal.Product.final0 (V3 m ρ) c).trans ?_)
  rw [show V3 m ρ c main_arg0 = _ from a03 m ρ c, show V3 m ρ c main_arg2 = _ from a23 m ρ c]

/-- The host operations after it aggregate that product over the edges. -/
theorem agg1 (c : Dev nD) : W5 m ρ c (Proc.devRef .tc main_v45)
    = Cert.Encoder.agg128 (m ((c : Thread nD τ).loc main_arg1)) (W4 m ρ c (Proc.devRef .tc main_v32)) := by
  show StableHlo.after hostOps1 (W4 m ρ c) (Proc.devRef .tc main_v45) = _
  after_results_simp
  rw [src4 m ρ c, dst4 m ρ c, nrm4 m ρ c]
  rfl

/-- … and reshape the first bias to a row. -/
theorem row1 (c : Dev nD) : W5 m ρ c (Proc.devRef .tc main_v46)
    = shapeCast S1x128 (m ((c : Thread nD τ).loc main_arg3)) shapeCasts_S128_S1x128 := by
  show StableHlo.after hostOps1 (W4 m ρ c) (Proc.devRef .tc main_v46) = _
  after_results_simp
  rw [a34 m ρ c]
  rfl

/-- The second region's output is the encoder's hidden array. -/
theorem hidden6 (c : Dev nD) : W6 m ρ c (Proc.devRef .tc main_v47) = (Cert.Encoder.hid (m ((c : Thread nD τ).loc main_arg1)) (m ((c : Thread nD τ).loc main_arg0)) (m ((c : Thread nD τ).loc main_arg2)) (m ((c : Thread nD τ).loc main_arg3))) := by
  refine (W6_arr m ρ c 2).trans ((Cert.KernelIdeal.BiasRow.final1 (V5 m ρ) c (by decide) (by decide)).trans ?_)
  rw [show V5 m ρ c main_v45 = _ from agg1 m ρ c, show V5 m ρ c main_v46 = _ from row1 m ρ c, prod1 m ρ c,
    row_cast (a := 128) _ _ (by decide)]
  rfl

/-! ## The first output layer -/

theorem prod2 (c : Dev nD) : W7 m ρ c (Proc.devRef .tc main_v48)
    = Host.dotGeneral (F := Ideal) (φ₁ := .f32) (φ₂ := .f32) (DotDims.plain 100000 128 64) none (W6 m ρ c (Proc.devRef .tc main_v47)) (m ((c : Thread nD τ).loc main_arg4)) := by
  refine (W7_arr m ρ c 2).trans ((Cert.KernelIdeal.Product.final2 (V6 m ρ) c).trans ?_)
  rw [show V6 m ρ c main_arg4 = _ from a46 m ρ c]

theorem agg2 (c : Dev nD) : W8 m ρ c (Proc.devRef .tc main_v61)
    = Cert.Encoder.agg64 (m ((c : Thread nD τ).loc main_arg1)) (W7 m ρ c (Proc.devRef .tc main_v48)) := by
  show StableHlo.after hostOps3 (W7 m ρ c) (Proc.devRef .tc main_v61) = _
  after_results_simp
  rw [src7 m ρ c, dst7 m ρ c, nrm7 m ρ c]
  rfl

theorem row2 (c : Dev nD) : W8 m ρ c (Proc.devRef .tc main_v62)
    = shapeCast S1x64 (m ((c : Thread nD τ).loc main_arg5)) shapeCasts_S64_S1x64 := by
  show StableHlo.after hostOps3 (W7 m ρ c) (Proc.devRef .tc main_v62) = _
  after_results_simp
  rw [a57 m ρ c]
  rfl

/-- The fourth region's output is the output layer with the third weight matrix and the second bias. -/
theorem out9 (c : Dev nD) : W9 m ρ c (Proc.devRef .tc main_v63)
    = Cert.Encoder.out64 (m ((c : Thread nD τ).loc main_arg1)) (W6 m ρ c (Proc.devRef .tc main_v47)) (m ((c : Thread nD τ).loc main_arg4)) (m ((c : Thread nD τ).loc main_arg5)) := by
  refine (W9_arr m ρ c 2).trans ((Cert.KernelIdeal.BiasRow.final3 (V8 m ρ) c (by decide)).trans ?_)
  rw [show V8 m ρ c main_v61 = _ from agg2 m ρ c, show V8 m ρ c main_v62 = _ from row2 m ρ c, prod2 m ρ c,
    row_cast (a := 64) _ _ (by decide)]
  rfl

/-! ## The second output layer -/

theorem prod3 (c : Dev nD) : W10 m ρ c (Proc.devRef .tc main_v64)
    = Host.dotGeneral (F := Ideal) (φ₁ := .f32) (φ₂ := .f32) (DotDims.plain 100000 128 64) none (W6 m ρ c (Proc.devRef .tc main_v47)) (m ((c : Thread nD τ).loc main_arg6)) := by
  refine (W10_arr m ρ c 2).trans ((Cert.KernelIdeal.Product.final4 (V9 m ρ) c).trans ?_)
  rw [show V9 m ρ c main_v47 = _ from hid9 m ρ c, show V9 m ρ c main_arg6 = _ from a69 m ρ c]

theorem agg3 (c : Dev nD) : W11 m ρ c (Proc.devRef .tc main_v77)
    = Cert.Encoder.agg64 (m ((c : Thread nD τ).loc main_arg1)) (W10 m ρ c (Proc.devRef .tc main_v64)) := by
  show StableHlo.after hostOps5 (W10 m ρ c) (Proc.devRef .tc main_v77) = _
  after_results_simp
  rw [src10 m ρ c, dst10 m ρ c, nrm10 m ρ c]
  rfl

theorem row3 (c : Dev nD) : W11 m ρ c (Proc.devRef .tc main_v78)
    = shapeCast S1x64 (m ((c : Thread nD τ).loc main_arg7)) shapeCasts_S64_S1x64 := by
  show StableHlo.after hostOps5 (W10 m ρ c) (Proc.devRef .tc main_v78) = _
  after_results_simp
  rw [a710 m ρ c]
  rfl

/-- The sixth region's output is the output layer with the fourth weight matrix and the third bias. -/
theorem out12 (c : Dev nD) : W12 m ρ c (Proc.devRef .tc main_v79)
    = Cert.Encoder.out64 (m ((c : Thread nD τ).loc main_arg1)) (W6 m ρ c (Proc.devRef .tc main_v47)) (m ((c : Thread nD τ).loc main_arg6)) (m ((c : Thread nD τ).loc main_arg7)) := by
  refine (W12_arr m ρ c 2).trans ((Cert.KernelIdeal.BiasRow.final5 (V11 m ρ) c (by decide)).trans ?_)
  rw [show V11 m ρ c main_v77 = _ from agg3 m ρ c, show V11 m ρ c main_v78 = _ from row3 m ρ c, prod3 m ρ c,
    row_cast (a := 64) _ _ (by decide)]
  rfl

/-! ## The two results -/

/-- The first result buffer at the end of the run. -/
theorem result0 (c : Dev nD) : W12 m ρ c (Proc.devRef .tc main_v63)
    = Cert.Encoder.out64 (m ((c : Thread nD τ).loc main_arg1)) (Cert.Encoder.hid (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5)) := by
  rw [mu12 m ρ c, out9 m ρ c, hidden6 m ρ c]

/-- The second result buffer at the end of the run. -/
theorem result1 (c : Dev nD) : W12 m ρ c (Proc.devRef .tc main_v79)
    = Cert.Encoder.out64 (m ((c : Thread nD τ).loc main_arg1)) (Cert.Encoder.hid (m ((c : Thread nD τ).loc main_arg1)) (m ((c : Thread nD τ).loc main_arg0)) (m ((c : Thread nD τ).loc main_arg2)) (m ((c : Thread nD τ).loc main_arg3))) (m ((c : Thread nD τ).loc main_arg6)) (m ((c : Thread nD τ).loc main_arg7)) := by
  rw [out12 m ρ c, hidden6 m ρ c]

end Cert.KernelIdeal.Layers

end
-- ==== Proof.lean ====
import proofs.«142807_j22084721836480_1_alg».proof.Defs
import proofs.«142807_j22084721836480_1_alg».proof.Proof.Gen.Kernel
import proofs.«142807_j22084721836480_1_alg».proof.Proof.Gen.Kernel.Skeleton
import proofs.«142807_j22084721836480_1_alg».proof.Proof.Gen.Kernel.Launch
import proofs.«142807_j22084721836480_1_alg».proof.Proof.Gen.Kernel.Points
import proofs.«142807_j22084721836480_1_alg».proof.Proof.Gen.Kernel.Frame
import proofs.«142807_j22084721836480_1_alg».proof.Proof.Gen.KernelIdeal
import proofs.«142807_j22084721836480_1_alg».proof.Proof.Gen.KernelIdeal.Skeleton
import proofs.«142807_j22084721836480_1_alg».proof.Proof.Gen.KernelIdeal.Launch
import proofs.«142807_j22084721836480_1_alg».proof.Proof.Gen.KernelIdeal.Points
import proofs.«142807_j22084721836480_1_alg».proof.Proof.Gen.KernelIdeal.Frame
import proofs.«142807_j22084721836480_1_alg».proof.Proof.Gen.ReferenceIdeal
import proofs.«142807_j22084721836480_1_alg».proof.Proof.Gen.Pre_finite_inputs
import proofs.«142807_j22084721836480_1_alg».proof.Proof.ReferenceRun
import proofs.«142807_j22084721836480_1_alg».proof.Proof.ReferenceValue
import proofs.«142807_j22084721836480_1_alg».proof.Proof.KernelRun
import proofs.«142807_j22084721836480_1_alg».proof.Proof.KernelLayers
import Idealize.ShloMosaic.Adequacy
import Idealize.ShloMosaic.Init

/-!
# A two-layer graph-convolution encoder: the tiled kernel program against its reference

Both programs prepare the graph in the same way (self-loops appended to the edge list, degrees counted, each edge
weighted by the reciprocal square roots of its end points' degrees) and then apply three layers: a matrix product, an
aggregation of the product over the edges, a bias; the first layer is followed by a maximum with zero and feeds the
other two. The kernel program computes the three products and the three bias additions in tiled regions of ten row
tiles each, the products with operands first narrowed to a shorter float format — the identity over the extended
reals — and into a zero accumulator; the reference computes them with whole-array host operations. The gathers and
scatter-additions of the aggregations are the same host operations in both programs, applied to equal operands. So
over the extended reals both results are one function of the arguments, with no condition on the arguments' values:
each product entry is the same finite sum of products of entries, and nothing is regrouped across the aggregations.
No rewrite was applied in idealizing the kernel, so that claim is trivial; the frames are the programs' runs with the
results forgotten.
-/

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2.2) (Cert.ReferenceIdeal.ValueP.run (F := Ideal) m ρ)

/-- From memories agreeing on the arguments both programs end with the encoder's two output layers of those arguments
    in their result buffers. -/
theorem algebraic : Cert.algebraic_KernelIdeal_ReferenceIdeal := by
  intro m ρ m' ρ' _ hagree
  refine ⟨fun c => Cert.Encoder.out64 (m ((c.tc : Thread Cert.KernelIdeal.nD Cert.KernelIdeal.τ).loc Cert.KernelIdeal.main_arg1)) (Cert.Encoder.hid (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Encoder.out64 (m ((c.tc : Thread Cert.KernelIdeal.nD Cert.KernelIdeal.τ).loc Cert.KernelIdeal.main_arg1)) (Cert.Encoder.hid (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Layers.result0 m ρ c), (h c).2.1.trans (Cert.KernelIdeal.Layers.result1 m ρ c), (h c).2.2⟩)
      (Cert.KernelIdeal.Named.run_named (F := Ideal) m ρ)
  · refine (θ_run Cert.ReferenceIdeal.defs _ _).mono (fun _ h c => ⟨(h c).1.trans ?_, (h c).2.1.trans ?_, (h c).2.2⟩)
      (Cert.ReferenceIdeal.ValueP.run (F := Ideal) m' ρ')
    · obtain ⟨h0, h1, h2, h3, h4, h5, h6, h7⟩ := hagree c
      rw [Cert.ReferenceIdeal.Enc.out0_eq m' c, h0, h1, h2, h3, h4, h5]
    · obtain ⟨h0, h1, h2, h3, h4, h5, h6, h7⟩ := hagree c
      rw [Cert.ReferenceIdeal.Enc.out1_eq m' c, h0, h1, h2, h3, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
